-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 137
  | .vmem => 42
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x600000, .i32⟩
  | 9 => ⟨S600000, .i32⟩
  | 10 => ⟨S1x600000, .i32⟩
  | 11 => ⟨S600000, .i32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x1, .f32⟩
  | 53 => ⟨S600000x128, .f32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S1x128, .f32⟩
  | 60 => ⟨S100000x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x1, .f32⟩
  | 91 => ⟨S600000x128, .f32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S1x128, .f32⟩
  | 98 => ⟨S100000x128, .f32⟩
  | 99 => ⟨S100000x64, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000, .f32⟩
  | 118 => ⟨S600000, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x64, .f32⟩
  | _ => ⟨S100000x128, .f32⟩

abbrev hbmTy0_1 (i : Nat) : BufTy := match i % 128 with
  | 0 => ⟨S600000x1, .f32⟩
  | 1 => ⟨S600000x64, .f32⟩
  | 2 => ⟨S600000x64, .f32⟩
  | 3 => ⟨S_, .f32⟩
  | 4 => ⟨S100000x64, .f32⟩
  | 5 => ⟨S600000x1, .i32⟩
  | 6 => ⟨S100000x64, .f32⟩
  | 7 => ⟨S1x64, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_17 : Ref sig .tc := ⟨.hbm, 109, rfl⟩
abbrev main_v82 : Ref sig .tc := ⟨.hbm, 110, rfl⟩
abbrev main_v83 : Ref sig .tc := ⟨.hbm, 111, rfl⟩
abbrev main_c_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_21 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x64 : Shape := ⟨2, ![100000, 64]⟩
abbrev S600000x64 : Shape := ⟨2, ![600000, 64]⟩
abbrev S1x64 : Shape := ⟨2, ![1, 64]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x600000, .i32⟩
  | 9 => ⟨S600000, .i32⟩
  | 10 => ⟨S1x600000, .i32⟩
  | 11 => ⟨S600000, .i32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x1, .f32⟩
  | 52 => ⟨S600000x128, .f32⟩
  | 53 => ⟨S600000x128, .f32⟩
  | 54 => ⟨S_, .f32⟩
  | 55 => ⟨S100000x128, .f32⟩
  | 56 => ⟨S600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000, .f32⟩
  | 88 => ⟨S600000, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S600000x1, .f32⟩
  | 99 => ⟨S600000x128, .f32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S100000, .f32⟩
  | 106 => ⟨S100000x1, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x64, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000, .f32⟩
  | 126 => ⟨S_, .i32⟩
  | 127 => ⟨S600000, .i32⟩
  | _ => ⟨S100000x128, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000, .f32⟩
  | 7 => ⟨S600000, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x64, .f32⟩
  | 17 => ⟨S600000x1, .f32⟩
  | 18 => ⟨S600000x64, .f32⟩
  | 19 => ⟨S600000x64, .f32⟩
  | 20 => ⟨S_, .f32⟩
  | 21 => ⟨S100000x64, .f32⟩
  | 22 => ⟨S600000x1, .i32⟩
  | 23 => ⟨S100000x64, .f32⟩
  | 24 => ⟨S100000, .f32⟩
  | 25 => ⟨S100000x1, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.KRun.lean ====
/-
  The whole program's run with its result array named.

  Between the launch and the return the program's buffers pass through eleven boundaries: a stretch of host operations
  rewrites its result buffers, a region rewrites its arrays with what its write-backs leave.  Every weakly fair execution
  terminates with every unscoped buffer at the last boundary's contents; read at the result buffer this names the
  program's result, read at an argument it gives back the launch contents.
-/
import proofs.«178657_j15350213116645_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_named : θ_run defs (onTc (τ := τ) (main (F := F))) ⟨m, fun _ => 0, ρ⟩ (fun r => ∀ c : Dev nD,
      r.2.mem ((c.tc : Thread nD τ).loc main_v104) = W10 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v104 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.NamedRun

end
-- ==== Proof.Spec.lean ====
/-
  The network as one function of its arguments, in the reference's spelling.

  From the edge list e (a row of sources and a row of targets) the degree factor of node i is
  d(i) = (1 + number of edges into i)^(-1/2), and the coefficient of an edge is d(source) * d(target).  A layer takes
  features x, weights w and a bias b: with h = x * w it sends along every edge the source's row of h times the edge's
  coefficient, sums the messages arriving at each node, adds the node's own row of h times d(i)^2 and the bias; the two
  inner layers then clip at zero.  The network is three such layers, of widths 128, 128 and 64.  The reference's composed
  result term is this function of its eight arguments, by unfolding.
-/
import proofs.«178657_j15350213116645_1_alg».proof.Proof.Gen.ReferenceIdeal.Run
import Idealize.ShloMosaic.PureOps.Ideal

set_option maxRecDepth 16384

noncomputable section

namespace Cert.Gcn

open Cert.ReferenceIdeal Cert.ReferenceIdeal.Gen Idealize.ShloMosaic Idealize.ShloMosaic.TcCoe Idealize.SL.Sem

abbrev EV := (⟨S2x600000, .i32⟩ : BufTy).Contents (Elt Ideal)
abbrev FV (S : Shape) := FVec Ideal S .f32

/-- The edges' sources: the edge list's first row. -/
def srcOf (e : EV) : (⟨S600000, .i32⟩ : BufTy).Contents (Elt Ideal) :=
  shapeCast _ (extractStridedSlice S1x600000 ![0, 0] e slices_S2x600000_S1x600000_0_0) shapeCasts_S1x600000_S600000
/-- The edges' targets: its second row. -/
def dstOf (e : EV) : (⟨S600000, .i32⟩ : BufTy).Contents (Elt Ideal) :=
  shapeCast _ (extractStridedSlice S1x600000 ![1, 0] e slices_S2x600000_S1x600000_1_0) shapeCasts_S1x600000_S600000
/-- A node number read as Python reads an index: a negative one counts from the end. -/
def wrapIdx (v : (⟨S600000, .i32⟩ : BufTy).Contents (Elt Ideal)) : (⟨S600000, .i32⟩ : BufTy).Contents (Elt Ideal) :=
  select (cmpi .slt v (broadcastInDim S600000 ![] bcast_S_S600000 (constantI S_ 32 0#32))) (addi v (broadcastInDim S600000 ![] bcast_S_S600000 (constantI S_ 32 100000#32))) v
/-- The nodes' degree factors: (1 + in-degree)^(-1/2). -/
def degOf (e : EV) : FV S100000 :=
  Host.rsqrt (addf (Host.scatterAdd scatter_S100000_S600000x1_S600000_n_0_0_1 (broadcastInDim S100000 ![] bcast_S_S100000 (constant S_ .f32 0x00000000#32)) (broadcastInDim S600000x1 ![0] bcast_S600000_S600000x1_0 (dstOf e)) (broadcastInDim S600000 ![] bcast_S_S600000 (constant S_ .f32 0x3F800000#32))) (broadcastInDim S100000 ![] bcast_S_S100000 (constant S_ .f32 0x3F800000#32)))
/-- The edges' coefficients: the source's factor times the target's. -/
def coefOf (e : EV) : FV S600000 :=
  mulf (Host.gather gather_S100000_S600000x1_S600000_n_0_n_n_0_1_1 (degOf e) (broadcastInDim S600000x1 ![0] bcast_S600000_S600000x1_0 (wrapIdx (srcOf e)))) (Host.gather gather_S100000_S600000x1_S600000_n_0_n_n_0_1_1 (degOf e) (broadcastInDim S600000x1 ![0] bcast_S600000_S600000x1_0 (wrapIdx (dstOf e))))
/-- The messages summed at their targets, width 128. -/
def agg128 (e : EV) (h : FV S100000x128) : FV S100000x128 :=
  Host.scatterAdd scatter_S100000x128_S600000x1_S600000x128_1_0_0_1 (broadcastInDim S100000x128 ![] bcast_S_S100000x128 (constant S_ .f32 0x00000000#32)) (broadcastInDim S600000x1 ![0] bcast_S600000_S600000x1_0 (dstOf e)) (mulf (Host.gather gather_S100000x128_S600000x1_S600000x128_1_0_n_n_0_1_1128 h (broadcastInDim S600000x1 ![0] bcast_S600000_S600000x1_0 (wrapIdx (srcOf e)))) (broadcastInDim S600000x128 ![0, 1] bcast_S600000x1_S600000x128_0_1 (broadcastInDim S600000x1 ![0] bcast_S600000_S600000x1_0 (coefOf e))))
/-- The messages summed at their targets, width 64. -/
def agg64 (e : EV) (h : FV S100000x64) : FV S100000x64 :=
  Host.scatterAdd scatter_S100000x64_S600000x1_S600000x64_1_0_0_1 (broadcastInDim S100000x64 ![] bcast_S_S100000x64 (constant S_ .f32 0x00000000#32)) (broadcastInDim S600000x1 ![0] bcast_S600000_S600000x1_0 (dstOf e)) (mulf (Host.gather gather_S100000x64_S600000x1_S600000x64_1_0_n_n_0_1_164 h (broadcastInDim S600000x1 ![0] bcast_S600000_S600000x1_0 (wrapIdx (srcOf e)))) (broadcastInDim S600000x64 ![0, 1] bcast_S600000x1_S600000x64_0_1 (broadcastInDim S600000x1 ![0] bcast_S600000_S600000x1_0 (coefOf e))))
/-- Messages plus the node's own term plus the bias, width 128, for a vector `d` of degree factors. -/
def own128 (d : FV S100000) (agg h : FV S100000x128) (b : FV S128) : FV S100000x128 :=
  addf (addf agg (mulf (broadcastInDim S100000x128 ![0, 1] bcast_S100000x1_S100000x128_0_1 (broadcastInDim S100000x1 ![0] bcast_S100000_S100000x1_0 (mulf d d))) h)) (broadcastInDim S100000x128 ![0, 1] bcast_S1x128_S100000x128_0_1 (broadcastInDim S1x128 ![1] bcast_S128_S1x128_1 b))
/-- Messages plus the node's own term plus the bias, width 64. -/
def own64 (d : FV S100000) (agg h : FV S100000x64) (b : FV S64) : FV S100000x64 :=
  addf (addf agg (mulf (broadcastInDim S100000x64 ![0, 1] bcast_S100000x1_S100000x64_0_1 (broadcastInDim S100000x1 ![0] bcast_S100000_S100000x1_0 (mulf d d))) h)) (broadcastInDim S100000x64 ![0, 1] bcast_S1x64_S100000x64_0_1 (broadcastInDim S1x64 ![1] bcast_S64_S1x64_1 b))
/-- Clipping at zero. -/
def clip128 (x : FV S100000x128) : FV S100000x128 := maximumf x (broadcastInDim S100000x128 ![] bcast_S_S100000x128 (constant S_ .f32 0x00000000#32))
/-- The two products. -/
def dot128 (x : FV S100000x128) (w : FV S128x128) : FV S100000x128 := Host.dotGeneral dot_S100000x128_S128x128_S100000x128_1_0_0_1_n_n none x w
def dot64 (x : FV S100000x128) (w : FV S128x64) : FV S100000x64 := Host.dotGeneral dot_S100000x128_S128x64_S100000x64_1_0_0_1_n_n none x w
/-- An inner layer. -/
def layer128 (e : EV) (x : FV S100000x128) (w : FV S128x128) (b : FV S128) : FV S100000x128 :=
  clip128 (own128 (degOf e) (agg128 e (dot128 x w)) (dot128 x w) b)
/-- The last layer. -/
def layer64 (e : EV) (x : FV S100000x128) (w : FV S128x64) (b : FV S64) : FV S100000x64 :=
  own64 (degOf e) (agg64 e (dot64 x w)) (dot64 x w) b
/-- The network. -/
def net (x : FV S100000x128) (e : EV) (w1 : FV S128x128) (b1 : FV S128) (w2 : FV S128x128) (b2 : FV S128) (w3 : FV S128x64) (b3 : FV S64) : FV S100000x64 :=
  layer64 e (layer128 e (layer128 e x w1 b1) w2 b2) w3 b3

set_option maxHeartbeats 2000000 in
/-- The reference's composed result term is the network of its arguments. -/
theorem ref_eq (m : (ℓ : Loc nD τ sig) → Buf (Elt Ideal) ℓ) (c : Dev nD) :
    Cert.ReferenceIdeal.Value.res_main_v123 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v123
  rfl

end Cert.Gcn

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«178657_j15350213116645_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Region0.lean ====
/-
  A layer's product, block by block.

  The region multiplies the layer's input features, a block of 5000 rows at a time, by the whole 128 x 128 weight matrix.
  On the extended reals narrowing a float changes nothing, so the entry of a block's product in row p and column q is the
  sum over k of (block at (p, k)) * (weights at (k, q)): the entry of the product of the WHOLE feature array with the
  weights, in the block's row of the array.  The twenty blocks tile the array's rows, so after the region the result
  array is the product of the two whole arrays.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The product of a whole 100000 x 128 array with a 128 x 128 matrix, in the host's spelling. -/
def prod (x : FVec Ideal S100000x128 .f32) (w : FVec Ideal S128x128 .f32) : FVec Ideal S100000x128 .f32 :=
  Host.dotGeneral Cert.ReferenceIdeal.dot_S100000x128_S128x128_S100000x128_1_0_0_1_n_n none x w

theorem hz : (![0, 0] : Fin 2 → Nat) = fun _ => 0 := funext fun a => by fin_cases a <;> rfl

/-- An entry of a block's product: the sum over the shared coordinate. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) :=
  Cert.RowOps.matmul_zero_apply (d := dot_S5000x128_S128x128_S5000x128_1_0_0_1_n_n) ⟨rfl, rfl, rfl, rfl, rfl, rfl⟩ none x0 x1 p q

/-- An entry of the whole arrays' product: the same sum. -/
theorem prod_apply (x : FVec Ideal S100000x128 .f32) (w : FVec Ideal S128x128 .f32) (p : Fin 100000) (q : Fin 128) :
    prod x w (ix2 p q) = ∑ k : Fin 128, x (ix2 p k) * w (ix2 k q) :=
  Cert.HostRowOps.dot_apply (d := Cert.ReferenceIdeal.dot_S100000x128_S128x128_S100000x128_1_0_0_1_n_n) ⟨rfl, rfl, rfl, rfl, rfl, rfl⟩ none x w p q

/-- A block whose rows are rows of the array `A`, times the matrix `W`: its entry at `y` is the whole product's entry at
    the array index `i` in that row and the same column. -/
theorem block_entry (A : FVec Ideal S100000x128 .f32) (W : FVec Ideal S128x128 .f32)
    (x0 : Vec Ideal S5000x128 .f32) (x1 : Vec Ideal S128x128 .f32) (y : S5000x128.Idx) (i : S100000x128.Idx)
    (h0 : ∀ k : Fin 128, x0 (ix2 (y 0) k) = A (ix2 (i 0) k)) (h1 : x1 = W) (hc : y 1 = i 1) :
    k0_pay1 (F := Ideal) x0 x1 y = prod A W i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hq : q = Q := hc
  subst hq
  subst h1
  rw [pay_apply, prod_apply]
  exact Finset.sum_congr rfl fun k _ => by rw [show x0 (ix2 p k) = A (ix2 P k) from h0 k]

variable (V : (c : Dev nD) → (b : Ref sig .tc) → Buf (Elt Ideal) ((c : Thread nD τ).loc b))

/-- Where each window's block sits at grid point `t`: the feature block and the result block in block row `t`, the
    weights whole. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole arrays' product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  refine block_entry (V c main_arg0) (V c main_arg2) (iblk0 V c 0 t) (iblk0 V c 1 t) j (((cfg0.win 2).blk t).view.emb j) (fun k => ?_) ?_ ?_
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext y
    show V c main_arg2 (((cfg0.win 1).blk t).view.emb y) = V c main_arg2 y
    refine congrArg (V c main_arg2) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · apply Fin.ext
    show (j 1).val = win0_2.index t (1 : Fin 2) * 128 + 1 * (j 1).val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- Every index of the result array is in some point's block: row `r` is in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e00, e01, e10, e11, e20, e21⟩ := idx_facts t
  refine ⟨t, flush0_2 t, ?_⟩
  rw [mem_blk]
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the product of the feature array and the weights as the region found them. -/
theorem final (c : Dev nD) :
    (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.Product0

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.Region1.lean ====
/-
  A layer's combination of the aggregated messages with the node's own term, block by block.

  For a block of 5000 nodes the region adds to the aggregated messages the node's own features scaled by the square of
  its degree factor (a column, one entry per node), adds the bias (a row, one entry per feature) and clips at zero.  Entry (p, q) of a block depends on the entries of the four arrays in the block's row of the node axis only, so the
  twenty blocks together hold the same expression of the whole arrays, which is the host's spelling of the combination
  with the column and the row spread over the array.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.LibRowColOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Combine1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The combination on whole arrays, in the host's spelling: messages + (column squared, spread) * features + row, spread, clipped at zero. -/
def comb (agg h : FVec Ideal S100000x128 .f32) (dcol : FVec Ideal S100000x1 .f32) (brow : FVec Ideal S1x128 .f32) : FVec Ideal S100000x128 .f32 :=
  maximumf (addf (addf agg (mulf (broadcastInDim S100000x128 ![0, 1] Cert.ReferenceIdeal.Facts₀.bcast_S100000x1_S100000x128_0_1 (mulf dcol dcol)) h))
      (broadcastInDim S100000x128 ![0, 1] Cert.ReferenceIdeal.Facts₀.bcast_S1x128_S100000x128_0_1 brow))
    (broadcastInDim S100000x128 ![] Cert.ReferenceIdeal.Facts₀.bcast_S_S100000x128 (constant S_ .f32 0x00000000#32))

theorem hz : (![0, 0] : Fin 2 → Nat) = fun _ => 0 := funext fun a => by fin_cases a <;> rfl

/-- An entry of a block's combination. -/
theorem pay_apply (v0 : Vec Ideal S5000x1 .f32) (v3 v5 : Vec Ideal S5000x128 .f32) (v10 : Vec Ideal S1x128 .f32) (p : Fin 5000) (q : Fin 128) :
    k1_pay1 (F := Ideal) v0 v3 v5 v10 (ix2 p q) = max ((v3 (ix2 p q) + (v0 (ix2 p (0 : Fin 1)) * v0 (ix2 p (0 : Fin 1))) * v5 (ix2 p q)) + v10 (ix2 (0 : Fin 1) q)) (Ideal.ofBits .f32 0x00000000#32) := by
  unfold k1_pay1
  simp only [shapeCast_self, maximumf_apply, addf_apply, mulf_apply, broadcast_apply, Cert.RowOps.spread_apply,
    Cert.RowColOps.rowSpread_apply]
  rfl

/-- An entry of the whole arrays' combination. -/
theorem comb_apply (agg h : FVec Ideal S100000x128 .f32) (dcol : FVec Ideal S100000x1 .f32) (brow : FVec Ideal S1x128 .f32) (P : Fin 100000) (Q : Fin 128) :
    comb agg h dcol brow (ix2 P Q) = max ((agg (ix2 P Q) + (dcol (ix2 P (0 : Fin 1)) * dcol (ix2 P (0 : Fin 1))) * h (ix2 P Q)) + brow (ix2 (0 : Fin 1) Q)) (Ideal.ofBits .f32 0x00000000#32) := by
  unfold comb
  show max ((agg (ix2 P Q) + (broadcastInDim S100000x128 ![0, 1] Cert.ReferenceIdeal.Facts₀.bcast_S100000x1_S100000x128_0_1 (mulf dcol dcol) (ix2 P Q)) * h (ix2 P Q))
      + broadcastInDim S100000x128 ![0, 1] Cert.ReferenceIdeal.Facts₀.bcast_S1x128_S100000x128_0_1 brow (ix2 P Q))
      (broadcastInDim S100000x128 ![] Cert.ReferenceIdeal.Facts₀.bcast_S_S100000x128 (constant S_ .f32 0x00000000#32) (ix2 P Q)) = _
  rw [Cert.HostRowOps.colToMat_apply, Cert.HostRowOps.rowToMat_apply,
    broadcastInDim_apply _ Cert.ReferenceIdeal.Facts₀.bcast_S_S100000x128 (constant S_ .f32 0x00000000#32) (ix2 P Q) ix0 (fun a => a.elim0)]
  rfl

/-- A block whose entries are entries of the whole arrays in the same row and column: its combination at `y` is the
    whole arrays' combination at the array index `i`. -/
theorem block_entry (agg h : FVec Ideal S100000x128 .f32) (dcol : FVec Ideal S100000x1 .f32) (brow : FVec Ideal S1x128 .f32)
    (v0 : Vec Ideal S5000x1 .f32) (v3 v5 : Vec Ideal S5000x128 .f32) (v10 : Vec Ideal S1x128 .f32) (y : S5000x128.Idx) (i : S100000x128.Idx)
    (h0 : v0 (ix2 (y 0) (0 : Fin 1)) = dcol (ix2 (i 0) (0 : Fin 1))) (h3 : v3 y = agg i) (h5 : v5 y = h i)
    (h10 : v10 (ix2 (0 : Fin 1) (y 1)) = brow (ix2 (0 : Fin 1) (i 1))) :
    k1_pay1 (F := Ideal) v0 v3 v5 v10 y = comb agg h dcol brow i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  rw [pay_apply, comb_apply, h3, h5, show v0 (ix2 p (0 : Fin 1)) = dcol (ix2 P (0 : Fin 1)) from h0,
    show v10 (ix2 (0 : Fin 1) q) = brow (ix2 (0 : Fin 1) Q) from h10]

variable (V : (c : Dev nD) → (b : Ref sig .tc) → Buf (Elt Ideal) ((c : Thread nD τ).loc b))

/-- Where each window's block sits at grid point `t`: the messages, the features, the column and the result in block
    row `t`, the bias row whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the whole arrays' combination. -/
theorem flushed_eq (c : Dev nD) (t : Fin cfg1.N) :
    (dat1 V c).flushed 4 t = ((cfg1.win 4).blk t).view.read (Elt Ideal)
      (comb (V c main_v40) (V c main_v12) (V c main_v11) (V c main_v41)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts t
  funext j
  refine block_entry (V c main_v40) (V c main_v12) (V c main_v11) (V c main_v41)
    (iblk1 V c 2 t) (iblk1 V c 0 t) (iblk1 V c 1 t) (iblk1 V c 3 t) j (((cfg1.win 4).blk t).view.emb j) ?_ ?_ ?_ ?_
  · show V c main_v11 (((cfg1.win 2).blk t).view.emb (ix2 (j 0) (0 : Fin 1))) = V c main_v11 (ix2 ((((cfg1.win 4).blk t).view.emb j) 0) (0 : Fin 1))
    refine congrArg (V c main_v11) ?_
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v40 (((cfg1.win 0).blk t).view.emb j) = V c main_v40 (((cfg1.win 4).blk t).view.emb j)
    refine congrArg (V c main_v40) ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v12 (((cfg1.win 1).blk t).view.emb j) = V c main_v12 (((cfg1.win 4).blk t).view.emb j)
    refine congrArg (V c main_v12) ?_
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v41 (((cfg1.win 3).blk t).view.emb (ix2 (0 : Fin 1) (j 1))) = V c main_v41 (ix2 (0 : Fin 1) ((((cfg1.win 4).blk t).view.emb j) 1))
    refine congrArg (V c main_v41) ?_
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every index of the result array is in some point's block: row `r` is in block `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e00, e01, e10, e11, e20, e21, e30, e31, e40, e41⟩ := idx_facts t
  refine ⟨t, flush1_4 t, ?_⟩
  rw [mem_blk]
  have ht : t.val = (i 0).val / 5000 := rfl
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the result array is the combination of the four arrays as the region found them. -/
theorem final (c : Dev nD) :
    (dat1 V c).arrAt 4 cfg1.N = comb (V c main_v40) (V c main_v12) (V c main_v11) (V c main_v41) :=
  (dat1 V c).arrAt_eq_of_cover 4 (comb (V c main_v40) (V c main_v12) (V c main_v11) (V c main_v41))
    (fun t _ => flushed_eq V c t) cover

end Cert.KernelIdeal.Combine1

end
-- ==== Proof.Region2.lean ====
/-
  A layer's product, block by block.

  The region multiplies the layer's input features, a block of 5000 rows at a time, by the whole 128 x 128 weight matrix.
  On the extended reals narrowing a float changes nothing, so the entry of a block's product in row p and column q is the
  sum over k of (block at (p, k)) * (weights at (k, q)): the entry of the product of the WHOLE feature array with the
  weights, in the block's row of the array.  The twenty blocks tile the array's rows, so after the region the result
  array is the product of the two whole arrays.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The product of a whole 100000 x 128 array with a 128 x 128 matrix, in the host's spelling. -/
def prod (x : FVec Ideal S100000x128 .f32) (w : FVec Ideal S128x128 .f32) : FVec Ideal S100000x128 .f32 :=
  Host.dotGeneral Cert.ReferenceIdeal.dot_S100000x128_S128x128_S100000x128_1_0_0_1_n_n none x w

theorem hz : (![0, 0] : Fin 2 → Nat) = fun _ => 0 := funext fun a => by fin_cases a <;> rfl

/-- An entry of a block's product: the sum over the shared coordinate. -/
theorem pay_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  simp only [shapeCast_self]
  exact Cert.RowOps.matmul_zero_apply (d := dot_S5000x128_S128x128_S5000x128_1_0_0_1_n_n) ⟨rfl, rfl, rfl, rfl, rfl, rfl⟩ none x0 x1 p q

/-- An entry of the whole arrays' product: the same sum. -/
theorem prod_apply (x : FVec Ideal S100000x128 .f32) (w : FVec Ideal S128x128 .f32) (p : Fin 100000) (q : Fin 128) :
    prod x w (ix2 p q) = ∑ k : Fin 128, x (ix2 p k) * w (ix2 k q) :=
  Cert.HostRowOps.dot_apply (d := Cert.ReferenceIdeal.dot_S100000x128_S128x128_S100000x128_1_0_0_1_n_n) ⟨rfl, rfl, rfl, rfl, rfl, rfl⟩ none x w p q

/-- A block whose rows are rows of the array `A`, times the matrix `W`: its entry at `y` is the whole product's entry at
    the array index `i` in that row and the same column. -/
theorem block_entry (A : FVec Ideal S100000x128 .f32) (W : FVec Ideal S128x128 .f32)
    (x0 : Vec Ideal S5000x128 .f32) (x1 : Vec Ideal S128x128 .f32) (y : S5000x128.Idx) (i : S100000x128.Idx)
    (h0 : ∀ k : Fin 128, x0 (ix2 (y 0) k) = A (ix2 (i 0) k)) (h1 : x1 = W) (hc : y 1 = i 1) :
    k2_pay1 (F := Ideal) x0 x1 y = prod A W i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hq : q = Q := hc
  subst hq
  subst h1
  rw [pay_apply, prod_apply]
  exact Finset.sum_congr rfl fun k _ => by rw [show x0 (ix2 p k) = A (ix2 P k) from h0 k]

variable (V : (c : Dev nD) → (b : Ref sig .tc) → Buf (Elt Ideal) ((c : Thread nD τ).loc b))

/-- Where each window's block sits at grid point `t`: the feature block and the result block in block row `t`, the
    weights whole. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the whole arrays' product. -/
theorem flushed_eq (c : Dev nD) (t : Fin cfg2.N) :
    (dat2 V c).flushed 2 t = ((cfg2.win 2).blk t).view.read (Elt Ideal) (prod (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext j
  refine block_entry (V c main_v42) (V c main_arg4) (iblk2 V c 0 t) (iblk2 V c 1 t) j (((cfg2.win 2).blk t).view.emb j) (fun k => ?_) ?_ ?_
  · show V c main_v42 (((cfg2.win 0).blk t).view.emb (ix2 (j 0) k)) = V c main_v42 (ix2 ((((cfg2.win 2).blk t).view.emb j) 0) k)
    refine congrArg (V c main_v42) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · funext y
    show V c main_arg4 (((cfg2.win 1).blk t).view.emb y) = V c main_arg4 y
    refine congrArg (V c main_arg4) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · apply Fin.ext
    show (j 1).val = win2_2.index t (1 : Fin 2) * 128 + 1 * (j 1).val; omega

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every index of the result array is in some point's block: row `r` is in block `r / 5000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e00, e01, e10, e11, e20, e21⟩ := idx_facts t
  refine ⟨t, flush2_2 t, ?_⟩
  rw [mem_blk]
  have ht : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the product of the feature array and the weights as the region found them. -/
theorem final (c : Dev nD) :
    (dat2 V c).arrAt 2 cfg2.N = prod (V c main_v42) (V c main_arg4) :=
  (dat2 V c).arrAt_eq_of_cover 2 (prod (V c main_v42) (V c main_arg4)) (fun t _ => flushed_eq V c t) (cover)

end Cert.KernelIdeal.Product2

end
-- ==== Proof.Region3.lean ====
/-
  A layer's combination of the aggregated messages with the node's own term, block by block.

  For a block of 5000 nodes the region adds to the aggregated messages the node's own features scaled by the square of
  its degree factor (a column, one entry per node), adds the bias (a row, one entry per feature) and clips at zero.  Entry (p, q) of a block depends on the entries of the four arrays in the block's row of the node axis only, so the
  twenty blocks together hold the same expression of the whole arrays, which is the host's spelling of the combination
  with the column and the row spread over the array.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.LibRowColOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Combine3

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The combination on whole arrays, in the host's spelling: messages + (column squared, spread) * features + row, spread, clipped at zero. -/
def comb (agg h : FVec Ideal S100000x128 .f32) (dcol : FVec Ideal S100000x1 .f32) (brow : FVec Ideal S1x128 .f32) : FVec Ideal S100000x128 .f32 :=
  maximumf (addf (addf agg (mulf (broadcastInDim S100000x128 ![0, 1] Cert.ReferenceIdeal.Facts₀.bcast_S100000x1_S100000x128_0_1 (mulf dcol dcol)) h))
      (broadcastInDim S100000x128 ![0, 1] Cert.ReferenceIdeal.Facts₀.bcast_S1x128_S100000x128_0_1 brow))
    (broadcastInDim S100000x128 ![] Cert.ReferenceIdeal.Facts₀.bcast_S_S100000x128 (constant S_ .f32 0x00000000#32))

theorem hz : (![0, 0] : Fin 2 → Nat) = fun _ => 0 := funext fun a => by fin_cases a <;> rfl

/-- An entry of a block's combination. -/
theorem pay_apply (v0 : Vec Ideal S5000x1 .f32) (v3 v5 : Vec Ideal S5000x128 .f32) (v10 : Vec Ideal S1x128 .f32) (p : Fin 5000) (q : Fin 128) :
    k3_pay1 (F := Ideal) v0 v3 v5 v10 (ix2 p q) = max ((v3 (ix2 p q) + (v0 (ix2 p (0 : Fin 1)) * v0 (ix2 p (0 : Fin 1))) * v5 (ix2 p q)) + v10 (ix2 (0 : Fin 1) q)) (Ideal.ofBits .f32 0x00000000#32) := by
  unfold k3_pay1
  simp only [shapeCast_self, maximumf_apply, addf_apply, mulf_apply, broadcast_apply, Cert.RowOps.spread_apply,
    Cert.RowColOps.rowSpread_apply]
  rfl

/-- An entry of the whole arrays' combination. -/
theorem comb_apply (agg h : FVec Ideal S100000x128 .f32) (dcol : FVec Ideal S100000x1 .f32) (brow : FVec Ideal S1x128 .f32) (P : Fin 100000) (Q : Fin 128) :
    comb agg h dcol brow (ix2 P Q) = max ((agg (ix2 P Q) + (dcol (ix2 P (0 : Fin 1)) * dcol (ix2 P (0 : Fin 1))) * h (ix2 P Q)) + brow (ix2 (0 : Fin 1) Q)) (Ideal.ofBits .f32 0x00000000#32) := by
  unfold comb
  show max ((agg (ix2 P Q) + (broadcastInDim S100000x128 ![0, 1] Cert.ReferenceIdeal.Facts₀.bcast_S100000x1_S100000x128_0_1 (mulf dcol dcol) (ix2 P Q)) * h (ix2 P Q))
      + broadcastInDim S100000x128 ![0, 1] Cert.ReferenceIdeal.Facts₀.bcast_S1x128_S100000x128_0_1 brow (ix2 P Q))
      (broadcastInDim S100000x128 ![] Cert.ReferenceIdeal.Facts₀.bcast_S_S100000x128 (constant S_ .f32 0x00000000#32) (ix2 P Q)) = _
  rw [Cert.HostRowOps.colToMat_apply, Cert.HostRowOps.rowToMat_apply,
    broadcastInDim_apply _ Cert.ReferenceIdeal.Facts₀.bcast_S_S100000x128 (constant S_ .f32 0x00000000#32) (ix2 P Q) ix0 (fun a => a.elim0)]
  rfl

/-- A block whose entries are entries of the whole arrays in the same row and column: its combination at `y` is the
    whole arrays' combination at the array index `i`. -/
theorem block_entry (agg h : FVec Ideal S100000x128 .f32) (dcol : FVec Ideal S100000x1 .f32) (brow : FVec Ideal S1x128 .f32)
    (v0 : Vec Ideal S5000x1 .f32) (v3 v5 : Vec Ideal S5000x128 .f32) (v10 : Vec Ideal S1x128 .f32) (y : S5000x128.Idx) (i : S100000x128.Idx)
    (h0 : v0 (ix2 (y 0) (0 : Fin 1)) = dcol (ix2 (i 0) (0 : Fin 1))) (h3 : v3 y = agg i) (h5 : v5 y = h i)
    (h10 : v10 (ix2 (0 : Fin 1) (y 1)) = brow (ix2 (0 : Fin 1) (i 1))) :
    k3_pay1 (F := Ideal) v0 v3 v5 v10 y = comb agg h dcol brow i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  rw [pay_apply, comb_apply, h3, h5, show v0 (ix2 p (0 : Fin 1)) = dcol (ix2 P (0 : Fin 1)) from h0,
    show v10 (ix2 (0 : Fin 1) q) = brow (ix2 (0 : Fin 1) Q) from h10]

variable (V : (c : Dev nD) → (b : Ref sig .tc) → Buf (Elt Ideal) ((c : Thread nD τ).loc b))

/-- Where each window's block sits at grid point `t`: the messages, the features, the column and the result in block
    row `t`, the bias row whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of the whole arrays' combination. -/
theorem flushed_eq (c : Dev nD) (t : Fin cfg3.N) :
    (dat3 V c).flushed 4 t = ((cfg3.win 4).blk t).view.read (Elt Ideal)
      (comb (V c main_v71) (V c main_v43) (V c main_v11) (V c main_v72)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx_facts t
  funext j
  refine block_entry (V c main_v71) (V c main_v43) (V c main_v11) (V c main_v72)
    (iblk3 V c 2 t) (iblk3 V c 0 t) (iblk3 V c 1 t) (iblk3 V c 3 t) j (((cfg3.win 4).blk t).view.emb j) ?_ ?_ ?_ ?_
  · show V c main_v11 (((cfg3.win 2).blk t).view.emb (ix2 (j 0) (0 : Fin 1))) = V c main_v11 (ix2 ((((cfg3.win 4).blk t).view.emb j) 0) (0 : Fin 1))
    refine congrArg (V c main_v11) ?_
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v71 (((cfg3.win 0).blk t).view.emb j) = V c main_v71 (((cfg3.win 4).blk t).view.emb j)
    refine congrArg (V c main_v71) ?_
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v43 (((cfg3.win 1).blk t).view.emb j) = V c main_v43 (((cfg3.win 4).blk t).view.emb j)
    refine congrArg (V c main_v43) ?_
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v72 (((cfg3.win 3).blk t).view.emb (ix2 (0 : Fin 1) (j 1))) = V c main_v72 (ix2 (0 : Fin 1) ((((cfg3.win 4).blk t).view.emb j) 1))
    refine congrArg (V c main_v72) ?_
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the result array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v73).slice (win3_4.rect t)).set ↔ _
  rw [View.set_slice_whole, Rect.mem_set_unit]
  exact Iff.rfl

/-- Every index of the result array is in some point's block: row `r` is in block `r / 5000`. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 5000, by rw [show cfg3.N = 20 from N_3]; omega⟩
  obtain ⟨e00, e01, e10, e11, e20, e21, e30, e31, e40, e41⟩ := idx_facts t
  refine ⟨t, flush3_4 t, ?_⟩
  rw [mem_blk]
  have ht : t.val = (i 0).val / 5000 := rfl
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the region the result array is the combination of the four arrays as the region found them. -/
theorem final (c : Dev nD) :
    (dat3 V c).arrAt 4 cfg3.N = comb (V c main_v71) (V c main_v43) (V c main_v11) (V c main_v72) :=
  (dat3 V c).arrAt_eq_of_cover 4 (comb (V c main_v71) (V c main_v43) (V c main_v11) (V c main_v72))
    (fun t _ => flushed_eq V c t) cover

end Cert.KernelIdeal.Combine3

end
-- ==== Proof.Region4.lean ====
/-
  A layer's product, block by block.

  The region multiplies the layer's input features, a block of 5000 rows at a time, by the whole 128 x 64 weight matrix.
  On the extended reals narrowing a float changes nothing, so the entry of a block's product in row p and column q is the
  sum over k of (block at (p, k)) * (weights at (k, q)): the entry of the product of the WHOLE feature array with the
  weights, in the block's row of the array.  The twenty blocks tile the array's rows, so after the region the result
  array is the product of the two whole arrays.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product4

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The product of a whole 100000 x 128 array with a 128 x 64 matrix, in the host's spelling. -/
def prod (x : FVec Ideal S100000x128 .f32) (w : FVec Ideal S128x64 .f32) : FVec Ideal S100000x64 .f32 :=
  Host.dotGeneral Cert.ReferenceIdeal.dot_S100000x128_S128x64_S100000x64_1_0_0_1_n_n none x w

theorem hz : (![0, 0] : Fin 2 → Nat) = fun _ => 0 := funext fun a => by fin_cases a <;> rfl

/-- An entry of a block's product: the sum over the shared coordinate. -/
theorem pay_apply (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  simp only [shapeCast_self]
  exact Cert.RowOps.matmul_zero_apply (d := dot_S5000x128_S128x64_S5000x64_1_0_0_1_n_n) ⟨rfl, rfl, rfl, rfl, rfl, rfl⟩ none x0 x1 p q

/-- An entry of the whole arrays' product: the same sum. -/
theorem prod_apply (x : FVec Ideal S100000x128 .f32) (w : FVec Ideal S128x64 .f32) (p : Fin 100000) (q : Fin 64) :
    prod x w (ix2 p q) = ∑ k : Fin 128, x (ix2 p k) * w (ix2 k q) :=
  Cert.HostRowOps.dot_apply (d := Cert.ReferenceIdeal.dot_S100000x128_S128x64_S100000x64_1_0_0_1_n_n) ⟨rfl, rfl, rfl, rfl, rfl, rfl⟩ none x w p q

/-- A block whose rows are rows of the array `A`, times the matrix `W`: its entry at `y` is the whole product's entry at
    the array index `i` in that row and the same column. -/
theorem block_entry (A : FVec Ideal S100000x128 .f32) (W : FVec Ideal S128x64 .f32)
    (x0 : Vec Ideal S5000x128 .f32) (x1 : Vec Ideal S128x64 .f32) (y : S5000x64.Idx) (i : S100000x64.Idx)
    (h0 : ∀ k : Fin 128, x0 (ix2 (y 0) k) = A (ix2 (i 0) k)) (h1 : x1 = W) (hc : y 1 = i 1) :
    k4_pay1 (F := Ideal) x0 x1 y = prod A W i := by
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hq : q = Q := hc
  subst hq
  subst h1
  rw [pay_apply, prod_apply]
  exact Finset.sum_congr rfl fun k _ => by rw [show x0 (ix2 p k) = A (ix2 P k) from h0 k]

variable (V : (c : Dev nD) → (b : Ref sig .tc) → Buf (Elt Ideal) ((c : Thread nD τ).loc b))

/-- Where each window's block sits at grid point `t`: the feature block and the result block in block row `t`, the
    weights whole. -/
theorem idx_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the whole arrays' product. -/
theorem flushed_eq (c : Dev nD) (t : Fin cfg4.N) :
    (dat4 V c).flushed 2 t = ((cfg4.win 2).blk t).view.read (Elt Ideal) (prod (V c main_v73) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨e00, e01, e10, e11, e20, e21⟩ := idx_facts t
  funext j
  refine block_entry (V c main_v73) (V c main_arg6) (iblk4 V c 0 t) (iblk4 V c 1 t) j (((cfg4.win 2).blk t).view.emb j) (fun k => ?_) ?_ ?_
  · show V c main_v73 (((cfg4.win 0).blk t).view.emb (ix2 (j 0) k)) = V c main_v73 (ix2 ((((cfg4.win 2).blk t).view.emb j) 0) k)
    refine congrArg (V c main_v73) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · funext y
    show V c main_arg6 (((cfg4.win 1).blk t).view.emb y) = V c main_arg6 y
    refine congrArg (V c main_arg6) ?_
    funext a; apply Fin.ext
    match a with
    | ⟨0, _⟩ => show win4_1.index t (0 : Fin 2) * 128 + 1 * (y 0).val = (y 0).val; omega
    | ⟨1, _⟩ => show win4_1.index t (1 : Fin 2) * 64 + 1 * (y 1).val = (y 1).val; omega
  · apply Fin.ext
    show (j 1).val = win4_2.index t (1 : Fin 2) * 64 + 1 * (j 1).val; omega

/-- An index of the result array is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v74).slice (win4_2.rect t)).set ↔ _
  rw [View.set_slice_whole, Rect.mem_set_unit]
  exact Iff.rfl

/-- Every index of the result array is in some point's block: row `r` is in block `r / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 5000, by rw [show cfg4.N = 20 from N_4]; omega⟩
  obtain ⟨e00, e01, e10, e11, e20, e21⟩ := idx_facts t
  refine ⟨t, flush4_2 t, ?_⟩
  rw [mem_blk]
  have ht : t.val = (i 0).val / 5000 := rfl
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the region the result array is the product of the feature array and the weights as the region found them. -/
theorem final (c : Dev nD) :
    (dat4 V c).arrAt 2 cfg4.N = prod (V c main_v73) (V c main_arg6) :=
  (dat4 V c).arrAt_eq_of_cover 2 (prod (V c main_v73) (V c main_arg6)) (fun t _ => flushed_eq V c t) (cover)

end Cert.KernelIdeal.Product4

end
-- ==== Proof.Region5.lean ====
/-
  A layer's combination of the aggregated messages with the node's own term, block by block.

  For a block of 5000 nodes the region adds to the aggregated messages the node's own features scaled by the square of
  its degree factor (a column, one entry per node), adds the bias (a row, one entry per feature).  Entry (p, q) of a block depends on the entries of the four arrays in the block's row of the node axis only, so the
  twenty blocks together hold the same expression of the whole arrays, which is the host's spelling of the combination
  with the column and the row spread over the array.
-/
import proofs.«178657_j15350213116645_1_alg».proof.Proof.Gen.KernelIdeal.Frame
import proofs.«178657_j15350213116645_1_alg».proof.Proof.LibRowOps
import proofs.«178657_j15350213116645_1_alg».proof.Proof.LibHostRowOps
import proofs.«178657_j15350213116645_1_alg».proof.Proof.LibRowColOps
import proofs.«178657_j15350213116645_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Combine5

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The combination on whole arrays, in the host's spelling: messages + (column squared, spread) * features + row, spread. -/
def comb (agg h : FVec Ideal S100000x64 .f32) (dcol : FVec Ideal S100000x1 .f32) (brow : FVec Ideal S1x64 .f32) : FVec Ideal S100000x64 .f32 :=
  addf (addf agg (mulf (broadcastInDim S100000x64 ![0, 1] Cert.ReferenceIdeal.Facts₀.bcast_S100000x1_S100000x64_0_1 (mulf dcol dcol)) h))
      (broadcastInDim S100000x64 ![0, 1] Cert.ReferenceIdeal.Facts₀.bcast_S1x64_S100000x64_0_1 brow)

theorem hz : (![0, 0] : Fin 2 → Nat) = fun _ => 0 := funext fun a => by fin_cases a <;> rfl

/-- An entry of a block's combination. -/
theorem pay_apply (v0 : Vec Ideal S5000x1 .f32) (v3 v5 : Vec Ideal S5000x64 .f32) (v10 : Vec Ideal S1x64 .f32) (p : Fin 5000) (q : Fin 64) :
    k5_pay1 (F := Ideal) v0 v3 v5 v10 (ix2 p q) = (v3 (ix2 p q) + (v0 (ix2 p (0 : Fin 1)) * v0 (ix2 p (0 : Fin 1))) * v5 (ix2 p q)) + v10 (ix2 (0 : Fin 1) q) := by
  unfold k5_pay1
  simp only [shapeCast_self, maximumf_apply, addf_apply, mulf_apply, broadcast_apply, Cert.RowOps.spread_apply,
    Cert.RowColOps.rowSpread_apply]

/-- An entry of the whole arrays' combination. -/
theorem comb_apply (agg h : FVec Ideal S100000x64 .f32) (dcol : FVec Ideal S100000x1 .f32) (brow : FVec Ideal S1x64 .f32) (P : Fin 100000) (Q : Fin 64) :
    comb agg h dcol brow (ix2 P Q) = (agg (ix2 P Q) + (dcol (ix2 P (0 : Fin 1)) * dcol (ix2 P (0 : Fin 1))) * h (ix2 P Q)) + brow (ix2 (0 : Fin 1) Q) := by
  unfold comb
  show ((agg (ix2 P Q) + (broadcastInDim S100000x64 ![0, 1] Cert.ReferenceIdeal.Facts₀.bcast_S100000x1_S100000x64_0_1 (mulf dcol dcol) (ix2 P Q)) * h (ix2 P Q))
      + broadcastInDim S100000x64 ![0, 1] Cert.ReferenceIdeal.Facts₀.bcast_S1x64_S100000x64_0_1 brow (ix2 P Q)) = _
  rw [Cert.HostRowOps.colToMat_apply, Cert.HostRowOps.rowToMat_apply]
  rfl

/-- A block whose entries are entries of the whole arrays in the same row and column: its combination at `y` is the
    whole arrays' combination at the array index `i`. -/
theorem block_entry (agg h : FVec Ideal S100000x64 .f32) (dcol : FVec Ideal S100000x1 .f32) (brow : FVec Ideal S1x64 .f32)
    (v0 : Vec Ideal S5000x1 .f32) (v3 v5 : Vec Ideal S5000x64 .f32) (v10 : Vec Ideal S1x64 .f32) (y : S5000x64.Idx) (i : S100000x64.Idx)
    (h0 : v0 (ix2 (y 0) (0 : Fin 1)) = dcol (ix2 (i 0) (0 : Fin 1))) (h3 : v3 y = agg i) (h5 : v5 y = h i)
    (h10 : v10 (ix2 (0 : Fin 1) (y 1)) = brow (ix2 (0 : Fin 1) (i 1))) :
    k5_pay1 (F := Ideal) v0 v3 v5 v10 y = comb agg h dcol brow i := by
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  rw [pay_apply, comb_apply, h3, h5, show v0 (ix2 p (0 : Fin 1)) = dcol (ix2 P (0 : Fin 1)) from h0,
    show v10 (ix2 (0 : Fin 1) q) = brow (ix2 (0 : Fin 1) Q) from h10]

variable (V : (c : Dev nD) → (b : Ref sig .tc) → Buf (Elt Ideal) ((c : Thread nD τ).loc b))

/-- Where each window's block sits at grid point `t`: the messages, the features, the column and the result in block
    row `t`, the bias row whole. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What grid point `t` writes back is block `t` of the whole arrays' combination. -/
theorem flushed_eq (c : Dev nD) (t : Fin cfg5.N) :
    (dat5 V c).flushed 4 t = ((cfg5.win 4).blk t).view.read (Elt Ideal)
      (comb (V c main_v102) (V c main_v74) (V c main_v11) (V c main_v103)) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx_facts t
  funext j
  refine block_entry (V c main_v102) (V c main_v74) (V c main_v11) (V c main_v103)
    (iblk5 V c 2 t) (iblk5 V c 0 t) (iblk5 V c 1 t) (iblk5 V c 3 t) j (((cfg5.win 4).blk t).view.emb j) ?_ ?_ ?_ ?_
  · show V c main_v11 (((cfg5.win 2).blk t).view.emb (ix2 (j 0) (0 : Fin 1))) = V c main_v11 (ix2 ((((cfg5.win 4).blk t).view.emb j) 0) (0 : Fin 1))
    refine congrArg (V c main_v11) ?_
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  · show V c main_v102 (((cfg5.win 0).blk t).view.emb j) = V c main_v102 (((cfg5.win 4).blk t).view.emb j)
    refine congrArg (V c main_v102) ?_
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  · show V c main_v74 (((cfg5.win 1).blk t).view.emb j) = V c main_v74 (((cfg5.win 4).blk t).view.emb j)
    refine congrArg (V c main_v74) ?_
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  · show V c main_v103 (((cfg5.win 3).blk t).view.emb (ix2 (0 : Fin 1) (j 1))) = V c main_v103 (ix2 (0 : Fin 1) ((((cfg5.win 4).blk t).view.emb j) 1))
    refine congrArg (V c main_v103) ?_
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega

/-- An index of the result array is in point `t`'s block iff each coordinate is in the block's range on its axis. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v104).slice (win5_4.rect t)).set ↔ _
  rw [View.set_slice_whole, Rect.mem_set_unit]
  exact Iff.rfl

/-- Every index of the result array is in some point's block: row `r` is in block `r / 5000`. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  let t : Fin cfg5.N := ⟨(i 0).val / 5000, by rw [show cfg5.N = 20 from N_5]; omega⟩
  obtain ⟨e00, e01, e10, e11, e20, e21, e30, e31, e40, e41⟩ := idx_facts t
  refine ⟨t, flush5_4 t, ?_⟩
  rw [mem_blk]
  have ht : t.val = (i 0).val / 5000 := rfl
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- After the region the result array is the combination of the four arrays as the region found them. -/
theorem final (c : Dev nD) :
    (dat5 V c).arrAt 4 cfg5.N = comb (V c main_v102) (V c main_v74) (V c main_v11) (V c main_v103) :=
  (dat5 V c).arrAt_eq_of_cover 4 (comb (V c main_v102) (V c main_v74) (V c main_v11) (V c main_v103))
    (fun t _ => flushed_eq V c t) cover

end Cert.KernelIdeal.Combine5

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Line.lean ====
/-
  The program as one line of operations.

  Each of the six regions leaves its input arrays as it found them and its one result array at a function of them: the
  product of the features with the layer's weights, or the layer's combination of messages, own term and bias.  A region
  therefore rewrites the buffers exactly as one host operation with that function would, and the buffer contents at the
  last boundary are those left by the four stretches of host operations and these six operations, applied in program
  order to the launch contents.
-/
import proofs.«178657_j15350213116645_1_alg».proof.Proof.Gen.KernelIdeal.Frame
import proofs.«178657_j15350213116645_1_alg».proof.Proof.Region0
import proofs.«178657_j15350213116645_1_alg».proof.Proof.Region1
import proofs.«178657_j15350213116645_1_alg».proof.Proof.Region2
import proofs.«178657_j15350213116645_1_alg».proof.Proof.Region3
import proofs.«178657_j15350213116645_1_alg».proof.Proof.Region4
import proofs.«178657_j15350213116645_1_alg».proof.Proof.Region5
import proofs.«178657_j15350213116645_1_alg».proof.Proof.LibRegionOp

set_option maxRecDepth 16384

noncomputable section

namespace Cert.KernelIdeal.Line

open Cert.KernelIdeal Cert.KernelIdeal.Gen Idealize.ShloMosaic Idealize.ShloMosaic.StableHlo Idealize.ShloMosaic.TcCoe
open Idealize.SL.Sem

/-- Region 0 as one operation: the product of its two input arrays, written to its result array. -/
def op0 : HloOp τ sig (Elt Ideal) :=
  binary main_arg0 main_arg2 main_v12 (Product0.prod : (⟨S100000x128, .f32⟩ : BufTy).Contents (Elt Ideal) → (⟨S128x128, .f32⟩ : BufTy).Contents (Elt Ideal) → (⟨S100000x128, .f32⟩ : BufTy).Contents (Elt Ideal))

/-- Region 1 as one operation: the combination of its four input arrays, written to its result array. -/
def op1 : HloOp τ sig (Elt Ideal) :=
  quaternary main_v40 main_v12 main_v11 main_v41 main_v42 (Combine1.comb : (⟨S100000x128, .f32⟩ : BufTy).Contents (Elt Ideal) → (⟨S100000x128, .f32⟩ : BufTy).Contents (Elt Ideal) → (⟨S100000x1, .f32⟩ : BufTy).Contents (Elt Ideal) → (⟨S1x128, .f32⟩ : BufTy).Contents (Elt Ideal) → (⟨S100000x128, .f32⟩ : BufTy).Contents (Elt Ideal))

/-- Region 2 as one operation: the product of its two input arrays, written to its result array. -/
def op2 : HloOp τ sig (Elt Ideal) :=
  binary main_v42 main_arg4 main_v43 (Product2.prod : (⟨S100000x128, .f32⟩ : BufTy).Contents (Elt Ideal) → (⟨S128x128, .f32⟩ : BufTy).Contents (Elt Ideal) → (⟨S100000x128, .f32⟩ : BufTy).Contents (Elt Ideal))

/-- Region 3 as one operation: the combination of its four input arrays, written to its result array. -/
def op3 : HloOp τ sig (Elt Ideal) :=
  quaternary main_v71 main_v43 main_v11 main_v72 main_v73 (Combine3.comb : (⟨S100000x128, .f32⟩ : BufTy).Contents (Elt Ideal) → (⟨S100000x128, .f32⟩ : BufTy).Contents (Elt Ideal) → (⟨S100000x1, .f32⟩ : BufTy).Contents (Elt Ideal) → (⟨S1x128, .f32⟩ : BufTy).Contents (Elt Ideal) → (⟨S100000x128, .f32⟩ : BufTy).Contents (Elt Ideal))

/-- Region 4 as one operation: the product of its two input arrays, written to its result array. -/
def op4 : HloOp τ sig (Elt Ideal) :=
  binary main_v73 main_arg6 main_v74 (Product4.prod : (⟨S100000x128, .f32⟩ : BufTy).Contents (Elt Ideal) → (⟨S128x64, .f32⟩ : BufTy).Contents (Elt Ideal) → (⟨S100000x64, .f32⟩ : BufTy).Contents (Elt Ideal))

/-- Region 5 as one operation: the combination of its four input arrays, written to its result array. -/
def op5 : HloOp τ sig (Elt Ideal) :=
  quaternary main_v102 main_v74 main_v11 main_v103 main_v104 (Combine5.comb : (⟨S100000x64, .f32⟩ : BufTy).Contents (Elt Ideal) → (⟨S100000x64, .f32⟩ : BufTy).Contents (Elt Ideal) → (⟨S100000x1, .f32⟩ : BufTy).Contents (Elt Ideal) → (⟨S1x64, .f32⟩ : BufTy).Contents (Elt Ideal) → (⟨S100000x64, .f32⟩ : BufTy).Contents (Elt Ideal))

variable (m : (ℓ : Loc nD τ sig) → Buf (Elt Ideal) ℓ) (ρ : Dev nD → PrngReg)

/-- Region 0 rewrites the buffers as its operation does. -/
theorem W2_eq (c : Dev nD) : W2 m ρ c = op0.result (W1 m ρ c) := by
  unfold W2
  refine Cert.RegionOp.withArrays_eq_result spec0 launch0.win.arr_inj c (W1 m ρ c) _ op0 2 rfl ?_ ?_
  · unfold op0
    rw [binary_result]
    exact Product0.final (V1 m ρ) c
  · intro w hw
    match w, hw with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, h => exact absurd rfl h

/-- Region 1 rewrites the buffers as its operation does. -/
theorem W4_eq (c : Dev nD) : W4 m ρ c = op1.result (W3 m ρ c) := by
  unfold W4
  refine Cert.RegionOp.withArrays_eq_result spec1 launch1.win.arr_inj c (W3 m ρ c) _ op1 4 rfl ?_ ?_
  · unfold op1
    rw [quaternary_result]
    exact Combine1.final (V3 m ρ) c
  · intro w hw
    match w, hw with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, h => exact absurd rfl h

/-- Region 2 rewrites the buffers as its operation does. -/
theorem W5_eq (c : Dev nD) : W5 m ρ c = op2.result (W4 m ρ c) := by
  unfold W5
  refine Cert.RegionOp.withArrays_eq_result spec2 launch2.win.arr_inj c (W4 m ρ c) _ op2 2 rfl ?_ ?_
  · unfold op2
    rw [binary_result]
    exact Product2.final (V4 m ρ) c
  · intro w hw
    match w, hw with
    | ⟨0, _⟩, _ => exact ((dat2 (V4 m ρ) c).arrAt_in 0 rfl _).trans (A_eq2 (V4 m ρ) c 0)
    | ⟨1, _⟩, _ => exact ((dat2 (V4 m ρ) c).arrAt_in 1 rfl _).trans (A_eq2 (V4 m ρ) c 1)
    | ⟨2, _⟩, h => exact absurd rfl h

/-- Region 3 rewrites the buffers as its operation does. -/
theorem W7_eq (c : Dev nD) : W7 m ρ c = op3.result (W6 m ρ c) := by
  unfold W7
  refine Cert.RegionOp.withArrays_eq_result spec3 launch3.win.arr_inj c (W6 m ρ c) _ op3 4 rfl ?_ ?_
  · unfold op3
    rw [quaternary_result]
    exact Combine3.final (V6 m ρ) c
  · intro w hw
    match w, hw with
    | ⟨0, _⟩, _ => exact ((dat3 (V6 m ρ) c).arrAt_in 0 rfl _).trans (A_eq3 (V6 m ρ) c 0)
    | ⟨1, _⟩, _ => exact ((dat3 (V6 m ρ) c).arrAt_in 1 rfl _).trans (A_eq3 (V6 m ρ) c 1)
    | ⟨2, _⟩, _ => exact ((dat3 (V6 m ρ) c).arrAt_in 2 rfl _).trans (A_eq3 (V6 m ρ) c 2)
    | ⟨3, _⟩, _ => exact ((dat3 (V6 m ρ) c).arrAt_in 3 rfl _).trans (A_eq3 (V6 m ρ) c 3)
    | ⟨4, _⟩, h => exact absurd rfl h

/-- Region 4 rewrites the buffers as its operation does. -/
theorem W8_eq (c : Dev nD) : W8 m ρ c = op4.result (W7 m ρ c) := by
  unfold W8
  refine Cert.RegionOp.withArrays_eq_result spec4 launch4.win.arr_inj c (W7 m ρ c) _ op4 2 rfl ?_ ?_
  · unfold op4
    rw [binary_result]
    exact Product4.final (V7 m ρ) c
  · intro w hw
    match w, hw with
    | ⟨0, _⟩, _ => exact ((dat4 (V7 m ρ) c).arrAt_in 0 rfl _).trans (A_eq4 (V7 m ρ) c 0)
    | ⟨1, _⟩, _ => exact ((dat4 (V7 m ρ) c).arrAt_in 1 rfl _).trans (A_eq4 (V7 m ρ) c 1)
    | ⟨2, _⟩, h => exact absurd rfl h

/-- Region 5 rewrites the buffers as its operation does. -/
theorem W10_eq (c : Dev nD) : W10 m ρ c = op5.result (W9 m ρ c) := by
  unfold W10
  refine Cert.RegionOp.withArrays_eq_result spec5 launch5.win.arr_inj c (W9 m ρ c) _ op5 4 rfl ?_ ?_
  · unfold op5
    rw [quaternary_result]
    exact Combine5.final (V9 m ρ) c
  · intro w hw
    match w, hw with
    | ⟨0, _⟩, _ => exact ((dat5 (V9 m ρ) c).arrAt_in 0 rfl _).trans (A_eq5 (V9 m ρ) c 0)
    | ⟨1, _⟩, _ => exact ((dat5 (V9 m ρ) c).arrAt_in 1 rfl _).trans (A_eq5 (V9 m ρ) c 1)
    | ⟨2, _⟩, _ => exact ((dat5 (V9 m ρ) c).arrAt_in 2 rfl _).trans (A_eq5 (V9 m ρ) c 2)
    | ⟨3, _⟩, _ => exact ((dat5 (V9 m ρ) c).arrAt_in 3 rfl _).trans (A_eq5 (V9 m ρ) c 3)
    | ⟨4, _⟩, h => exact absurd rfl h

/-- The contents at the last boundary: the stretches and the regions' operations applied in order to the launch contents. -/
theorem W10_fold (c : Dev nD) :
    W10 m ρ c = op5.result (after hostOps5 (op4.result (op3.result (after hostOps3 (op2.result (op1.result
      (after hostOps1 (op0.result (after hostOps0 (W0 m ρ c))))))))))  := by
  rw [W10_eq]
  show op5.result (after hostOps5 (W8 m ρ c)) = _
  rw [W8_eq, W7_eq]
  show op5.result (after hostOps5 (op4.result (op3.result (after hostOps3 (W5 m ρ c))))) = _
  rw [W5_eq, W4_eq]
  show op5.result (after hostOps5 (op4.result (op3.result (after hostOps3 (op2.result (op1.result (after hostOps1 (W2 m ρ c)))))))) = _
  rw [W2_eq]

end Cert.KernelIdeal.Line

end
-- ==== Proof.LibColAsBroadcast.lean ====
/-
  A vector as a one-column array: a reshape is a broadcast.

  A length-a vector can be laid out as an [a, 1] column in two ways: reshaped (`x.reshape(-1, 1)`, a `shape_cast` or a host
  `reshape`), or broadcast along the column's first axis (`x[:, None]`, the host's `broadcast_in_dim` with dims = [0]).
  Both read, at (i, 0), the vector at i, so they are the same array.  The companion of the row statement (a vector
  reshaped to a [1, n] row is its broadcast along the row's second axis).
-/
import Idealize.ShloMosaic.Lib.ValueIdx
import Idealize.ShloMosaic.Lib.Pipeline.Value
import proofs.«178657_j15350213116645_1_alg».proof.Proof.LibRowOps
import proofs.«178657_j15350213116645_1_alg».proof.Proof.LibHostRowOps

noncomputable section

namespace Cert.ColAsBroadcast

open Idealize.ShloMosaic Idealize.ShloMosaic.ValueIdx

variable {α : Type} {a : Nat}

/-- The reshape of a length-`a` vector to an `[a, 1]` column is its broadcast along the column's first axis. -/
theorem col_eq (x : (⟨1, ![a]⟩ : Shape).Idx → α) (hs : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hs = broadcastInDim ⟨2, ![a, 1]⟩ ![0] hb x :=
  funext fun j => by
    obtain ⟨i, u, rfl⟩ : ∃ (i : Fin a) (u : Fin 1), j = ix2 i u := ⟨j 0, j 1, eq_ix2 j⟩
    rw [Cert.RowOps.column_apply, Cert.HostRowOps.vecToCol_apply]

end Cert.ColAsBroadcast

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«178657_j15350213116645_1_alg».proof.Proof.LibRowView
import proofs.«178657_j15350213116645_1_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.Bridge.lean ====
/-
  The kernel program computes the network.

  Evaluated along its line of operations, the kernel program's result is the network's three layers with each layer's
  combination spelt the kernel's way: the degree factors enter as a column (the vector reshaped to [100000, 1]) and the
  bias as a row (reshaped to [1, n]), the column is squared entry by entry and then spread, where the reference squares
  the vector, makes it a column and spreads it.  A reshaped vector is its broadcast to the column (or the row), and the
  square of a column made from d is the column made from the squares of d, so the two spellings are one function.
-/
import proofs.«178657_j15350213116645_1_alg».proof.Proof.Spec
import proofs.«178657_j15350213116645_1_alg».proof.Proof.Line
import proofs.«178657_j15350213116645_1_alg».proof.Proof.LibColAsBroadcast
import proofs.«178657_j15350213116645_1_alg».proof.Proof.LibRowAsBroadcast
import proofs.«178657_j15350213116645_1_alg».proof.Proof.LibHostRowOps

set_option maxRecDepth 16384

noncomputable section

namespace Cert.Gcn

open Idealize.ShloMosaic Idealize.ShloMosaic.ValueIdx Idealize.ShloMosaic.StableHlo Idealize.ShloMosaic.TcCoe Idealize.SL.Sem

/-! ## The two spellings of a layer's combination -/

/-- The entrywise square of the column made from `d` is the column made from the squares. -/
theorem sq_col {a : Nat} (d : (⟨1, ![a]⟩ : Shape).Idx → EReal) (hb : (⟨1, ![a]⟩ : Shape).BroadcastsInDim ⟨2, ![a, 1]⟩ ![0]) :
    (mulf (F := Ideal) (φ := .f32) (broadcastInDim ⟨2, ![a, 1]⟩ ![0] hb d) (broadcastInDim ⟨2, ![a, 1]⟩ ![0] hb d) : FVec Ideal ⟨2, ![a, 1]⟩ .f32)
      = broadcastInDim ⟨2, ![a, 1]⟩ ![0] hb (mulf (F := Ideal) (φ := .f32) d d : FVec Ideal ⟨1, ![a]⟩ .f32) := by
  funext i
  obtain ⟨p, u, rfl⟩ : ∃ (p : Fin a) (u : Fin 1), i = ix2 p u := ⟨i 0, i 1, eq_ix2 i⟩
  rw [mulf_apply, Cert.HostRowOps.vecToCol_apply, Cert.HostRowOps.vecToCol_apply]
  rfl

open Cert.ReferenceIdeal Cert.ReferenceIdeal.Gen in
/-- An inner layer's combination in the kernel's spelling is the reference's. -/
theorem comb1_eq (agg h : FV S100000x128) (d : FV S100000) (b : FV S128)
    (hc : S100000.ShapeCasts S100000x1) (hr : S128.ShapeCasts S1x128) :
    Cert.KernelIdeal.Combine1.comb agg h (shapeCast S100000x1 d hc) (shapeCast S1x128 b hr) = clip128 (own128 d agg h b) := by
  unfold Cert.KernelIdeal.Combine1.comb clip128 own128
  rw [Cert.ColAsBroadcast.col_eq d hc bcast_S100000_S100000x1_0, Cert.RowAsBroadcast.row_eq b hr bcast_S128_S1x128_1, sq_col]

open Cert.ReferenceIdeal Cert.ReferenceIdeal.Gen in
/-- The same for the second inner layer's region. -/
theorem comb3_eq (agg h : FV S100000x128) (d : FV S100000) (b : FV S128)
    (hc : S100000.ShapeCasts S100000x1) (hr : S128.ShapeCasts S1x128) :
    Cert.KernelIdeal.Combine3.comb agg h (shapeCast S100000x1 d hc) (shapeCast S1x128 b hr) = clip128 (own128 d agg h b) := by
  unfold Cert.KernelIdeal.Combine3.comb clip128 own128
  rw [Cert.ColAsBroadcast.col_eq d hc bcast_S100000_S100000x1_0, Cert.RowAsBroadcast.row_eq b hr bcast_S128_S1x128_1, sq_col]

open Cert.ReferenceIdeal Cert.ReferenceIdeal.Gen in
/-- The last layer's combination in the kernel's spelling is the reference's. -/
theorem comb5_eq (agg h : FV S100000x64) (d : FV S100000) (b : FV S64)
    (hc : S100000.ShapeCasts S100000x1) (hr : S64.ShapeCasts S1x64) :
    Cert.KernelIdeal.Combine5.comb agg h (shapeCast S100000x1 d hc) (shapeCast S1x64 b hr) = own64 d agg h b := by
  unfold Cert.KernelIdeal.Combine5.comb own64
  rw [Cert.ColAsBroadcast.col_eq d hc bcast_S100000_S100000x1_0, Cert.RowAsBroadcast.row_eq b hr bcast_S64_S1x64_1, sq_col]

/-! ## The kernel program's result -/

section Kernel

open Cert.KernelIdeal Cert.KernelIdeal.Gen Cert.KernelIdeal.Line

/-- The network with each layer in the kernel's spelling. -/
def netK (x : FV S100000x128) (e : EV) (w1 : FV S128x128) (b1 : FV S128) (w2 : FV S128x128) (b2 : FV S128) (w3 : FV S128x64) (b3 : FV S64) : FV S100000x64 :=
  let dcol : FV S100000x1 := shapeCast S100000x1 (degOf e) shapeCasts_S100000_S100000x1
  let h1 := Product0.prod x w1
  let l1 := Combine1.comb (agg128 e h1) h1 dcol (shapeCast S1x128 b1 shapeCasts_S128_S1x128)
  let h2 := Product2.prod l1 w2
  let l2 := Combine3.comb (agg128 e h2) h2 dcol (shapeCast S1x128 b2 shapeCasts_S128_S1x128)
  let h3 := Product4.prod l2 w3
  Combine5.comb (agg64 e h3) h3 dcol (shapeCast S1x64 b3 shapeCasts_S64_S1x64)

/-- The kernel's spelling of the network is the network. -/
theorem netK_eq (x : FV S100000x128) (e : EV) (w1 : FV S128x128) (b1 : FV S128) (w2 : FV S128x128) (b2 : FV S128) (w3 : FV S128x64) (b3 : FV S64) :
    netK x e w1 b1 w2 b2 w3 b3 = net x e w1 b1 w2 b2 w3 b3 := by
  unfold netK net layer64 layer128
  simp only [comb1_eq, comb3_eq, comb5_eq]
  rfl

variable (m : (ℓ : Loc nD τ sig) → Buf (Elt Ideal) ℓ) (ρ : Dev nD → PrngReg)

set_option maxHeartbeats 64000000 in
/-- The result buffer's contents at the last boundary: the kernel's spelling of the network of the launch arguments. -/
theorem result_netK (c : Dev nD) :
    W10 m ρ c (Proc.devRef .tc main_v104) = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W10_fold]
  simp (disch := decide) only [hostOps0, hostOps1, hostOps3, hostOps5, op0, op1, op2, op3, op4, op5, after_cons, after_nil,
    nullary_result', unary_result', binary_result', ternary_result', quaternary_result', reshape_result',
    nullary_result_ne', unary_result_ne', binary_result_ne', ternary_result_ne', quaternary_result_ne', reshape_result_ne']
  rfl

/-- The result buffer's contents at the last boundary: the network of the launch arguments. -/
theorem result_net (c : Dev nD) :
    W10 m ρ c (Proc.devRef .tc main_v104) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (result_netK m ρ c).trans (netK_eq _ _ _ _ _ _ _ _)

end Kernel

end Cert.Gcn

end
-- ==== Proof.lean ====
/-
  A three-layer graph convolution: the kernel program against its reference, on the extended reals.

  Both programs compute, from node features x, an edge list e and three layers' weights and biases, the same network:
  each layer multiplies its input by the layer's weights, sends along every edge the source's row scaled by the edge's
  coefficient d(source) * d(target), sums the messages at their targets, adds the node's own row scaled by d(i)^2 and
  the bias, and (in the two inner layers) clips at zero; d(i) = (1 + in-degree of i)^(-1/2).  The reference does all of
  this with host operations.  The kernel program does the gathers and the scatter-adds with the same host operations and
  runs the products and the combinations as pipelined regions over blocks of 5000 nodes: a product region multiplies a
  block of rows by the whole weight matrix (narrowing to bf16 first, which changes nothing on the extended reals), a
  combination region works row by row, so the twenty blocks of a region together hold the whole arrays' product or
  combination.  Each region then acts on the buffers as one host operation, the program is one line of operations, and
  its result is the network in the kernel's spelling, which differs from the reference's only in how the column of
  degree factors and the row of biases are made and squared.  No law of arithmetic that needs finiteness is used, so
  the precondition is never opened.  The frames of the two kernel programs are the generated ones; the reference's frame
  is its generated run with the result dropped; the idealization rewrote nothing.
-/
import proofs.«178657_j15350213116645_1_alg».proof.Defs
import proofs.«178657_j15350213116645_1_alg».proof.Proof.Gen.Kernel
import proofs.«178657_j15350213116645_1_alg».proof.Proof.Gen.Kernel.Frame
import proofs.«178657_j15350213116645_1_alg».proof.Proof.Gen.KernelIdeal
import proofs.«178657_j15350213116645_1_alg».proof.Proof.Gen.KernelIdeal.Frame
import proofs.«178657_j15350213116645_1_alg».proof.Proof.Gen.ReferenceIdeal
import proofs.«178657_j15350213116645_1_alg».proof.Proof.Gen.ReferenceIdeal.Run
import proofs.«178657_j15350213116645_1_alg».proof.Proof.Gen.Pre_finite_inputs
import proofs.«178657_j15350213116645_1_alg».proof.Proof.KRun
import proofs.«178657_j15350213116645_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the network of the arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Gcn.result_net m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.Gcn.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
